-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x16 .f32) (main_arg2 : FVec F S16x4096 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1024x1024 : Shape := ⟨2, ![1024, 1024]⟩
abbrev S1024x16 : Shape := ⟨2, ![1024, 16]⟩
abbrev S16x1024 : Shape := ⟨2, ![16, 1024]⟩
abbrev S1x1024 : Shape := ⟨2, ![1, 1024]⟩

abbrev nBuf : Space → Nat
  | .hbm => 14
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4096, .f32⟩
  | .hbm, ⟨5, _⟩ => ⟨S8192x4096, .bf16⟩
  | .hbm, ⟨6, _⟩ => ⟨S4096x4096, .bf16⟩
  | .hbm, ⟨7, _⟩ => ⟨S4096x16, .bf16⟩
  | .hbm, ⟨8, _⟩ => ⟨S_, .f32⟩
  | .hbm, ⟨9, _⟩ => ⟨S16x4096, .f32⟩
  | .hbm, ⟨10, _⟩ => ⟨S16x4096, .f32⟩
  | .hbm, ⟨11, _⟩ => ⟨S16x4096, .bf16⟩
  | .hbm, ⟨12, _⟩ => ⟨S1x4096, .f32⟩
  | .hbm, ⟨13, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  bcast_S_S16x4096 : S_.BroadcastsInDim S16x4096 (![] : Fin 0 → Fin S16x4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  dot_S1024x1024_S1024x16_S1024x16_1_0_0_1_n_n_wf : DotDims.WF S1024x1024 S1024x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .bf16 = 32 ∨ (Rect.block (s := S4096x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x16_S1024x16_1_0_0_1_n_n : DotDims S1024x1024 S1024x16 S1024x16 where
  lhsContracting := [1]
  rhsContracting := [0]
  lhsNonContracting := [0]
  rhsNonContracting := [1]
  lhsBatch := []
  rhsBatch := []
  wf := dot_S1024x1024_S1024x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_call0_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x16 : Shape := ⟨2, ![4096, 16]⟩
abbrev S16x4096 : Shape := ⟨2, ![16, 4096]⟩
abbrev S4096x4096 : Shape := ⟨2, ![4096, 4096]⟩
abbrev S4096 : Shape := ⟨1, ![4096]⟩
abbrev S8192x16 : Shape := ⟨2, ![8192, 16]⟩
abbrev S_ : Shape := ⟨0, ![]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x16, .f32⟩
  | .hbm, ⟨2, _⟩ => ⟨S16x4096, .f32⟩
  | .hbm, ⟨3, _⟩ => ⟨S4096x4096, .f32⟩
  | .hbm, ⟨4, _⟩ => ⟨S4096, .f32⟩
  | .hbm, ⟨5, _⟩ => ⟨S8192x16, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S4096x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The function both programs compute, entry by entry, over the extended reals, and the algebra that joins the
  two arrangements of it.

  For a token row p and an output column q the value is

      (Σ_ρ (Σ_k x[p,k]·A[k,ρ]) · B[ρ,q]) · 2  +  ((Σ_k x[p,k]·W[q,k]) + b[q]),

  ρ over the 16 low-rank coordinates, k over the 4096 input features.  One program computes it in this order; the
  other cuts the 4096 features into four runs of 1024, accumulates the partial sums of both inner products run by
  run from zero, scales B by 2 beforehand, and adds the three terms in another order.  The two agree on every
  extended real: a sum over 4096 indices is the sum of its four runs of 1024 (commutativity and associativity of +
  only), and a finite non-negative factor distributes over a sum of extended reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The extended real the f32 word of 2.0 denotes. -/
def two : EReal := Ideal.ofBits .f32 0x40000000#32

/-- The f32 word of 2.0 denotes the real number 2. -/
theorem two_eq : two = ((2 : ℝ) : EReal) := by
  unfold two
  simp [Ideal.ofBits, Ideal.ieee, -EReal.coe_mul]; norm_num

/-- Feature k = 1024·kb + kk of the 4096, from its run kb and its place kk in the run. -/
def feat (kb : Fin 4) (kk : Fin 1024) : Fin 4096 := ⟨1024 * kb.val + kk.val, by have := kb.isLt; have := kk.isLt; omega⟩

/-- The result at row p, column q. -/
def G (x : (⟨2, ![8192, 4096]⟩ : Shape).Idx → EReal) (A : (⟨2, ![4096, 16]⟩ : Shape).Idx → EReal)
    (B : (⟨2, ![16, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => (∑ ρ : Fin 16, (∑ k : Fin 4096, x (ix2 (i 0) k) * A (ix2 k ρ)) * B (ix2 ρ (i 1))) * two
    + ((∑ k : Fin 4096, x (ix2 (i 0) k) * W (ix2 (i 1) k)) + b (ix1 (i 1)))

/-- A sum over the 4096 features is the sum of its four runs of 1024, accumulated run by run from zero. -/
theorem sum_runs (f : Fin 4096 → EReal) :
    ∑ k : Fin 4096, f k
      = (((0 + ∑ kk : Fin 1024, f (feat 0 kk)) + ∑ kk : Fin 1024, f (feat 1 kk)) + ∑ kk : Fin 1024, f (feat 2 kk))
          + ∑ kk : Fin 1024, f (feat 3 kk) := by
  have e : ∑ x : Fin 4 × Fin 1024, f (feat x.1 x.2) = ∑ k : Fin 4096, f k :=
    Fintype.sum_equiv (finProdFinEquiv : Fin 4 × Fin 1024 ≃ Fin 4096) (fun x => f (feat x.1 x.2)) f
      (fun x => congrArg f (Fin.ext (by
        show 1024 * x.1.val + x.2.val = x.2.val + 1024 * x.1.val
        omega)))
  rw [← e, Fintype.sum_prod_type, Fin.sum_univ_four, zero_add]

/-- The factor 2 moves out of a sum of products. -/
theorem sum_mul_two {n : Nat} (u v : Fin n → EReal) :
    ∑ ρ : Fin n, u ρ * (v ρ * two) = (∑ ρ : Fin n, u ρ * v ρ) * two := by
  have h2 : (0 : EReal) ≤ two := by rw [two_eq]; exact_mod_cast (by norm_num : (0 : ℝ) ≤ 2)
  have ht : two ≠ ⊤ := by rw [two_eq]; exact EReal.coe_ne_top _
  simp only [← mul_assoc]
  induction (Finset.univ : Finset (Fin n)) using Finset.induction_on with
  | empty => simp
  | insert a s ha ih =>
    rw [Finset.sum_insert ha, Finset.sum_insert ha, ih, EReal.right_distrib_of_nonneg_of_ne_top h2 ht]

/-- The run-by-run arrangement — both inner products accumulated over the four runs from zero, B scaled by 2
    beforehand, the bias added last — is the value. -/
theorem runs_eq (P : Fin 4096 → EReal) (Q : Fin 16 → Fin 4096 → EReal) (Bq : Fin 16 → EReal) (bq : EReal) :
    (((((0 + ∑ kk : Fin 1024, P (feat 0 kk)) + ∑ kk : Fin 1024, P (feat 1 kk)) + ∑ kk : Fin 1024, P (feat 2 kk))
          + ∑ kk : Fin 1024, P (feat 3 kk))
        + ∑ ρ : Fin 16, ((((0 + ∑ kk : Fin 1024, Q ρ (feat 0 kk)) + ∑ kk : Fin 1024, Q ρ (feat 1 kk))
            + ∑ kk : Fin 1024, Q ρ (feat 2 kk)) + ∑ kk : Fin 1024, Q ρ (feat 3 kk)) * (Bq ρ * two))
      + bq
    = (∑ ρ : Fin 16, (∑ k : Fin 4096, Q ρ k) * Bq ρ) * two + ((∑ k : Fin 4096, P k) + bq) := by
  simp only [← sum_runs]
  rw [sum_mul_two]
  rw [add_assoc, add_comm (∑ k : Fin 4096, P k), add_assoc, add_comm bq]

end Cert.Spec

end
-- ==== Proof.Blocks.lean ====
/-
  What each window's block holds at a grid point, entry by entry, in terms of the five argument arrays.

  The 128 grid points are numbered t = 16·i + 4·j + k with i the block of 1024 token rows (8 of them), j the block
  of 1024 output columns (4) and k the run of 1024 input features (4).  At point t the blocks are: rows i, features k
  of x; columns j, features k of W; features k of A; columns j of 2·B; columns j of b as a one-row matrix.  The arrays
  the blocks are cut from are written by @main before the call: a change of float format of x, W, A (the identity on
  extended reals), B times the splat of 2 and then a change of format, and b re-laid as a [1, 4096] matrix.
-/
import proofs.«101576_j49520972922883_2_alg».proof.Proof.Gen.KernelIdeal.Frame
import proofs.«101576_j49520972922883_2_alg».proof.Proof.Spec
import Idealize.ShloMosaic.Lib.Pipeline.Value
import Idealize.ShloMosaic.Lib.ValueIdx
import Idealize.ShloMosaic.Lib.StableHlo.Run

noncomputable section

open scoped BigOperators
open Idealize.ShloMosaic Idealize.ShloMosaic.TcCoe Idealize.SL.Sem Idealize.ShloMosaic.ValueIdx
open Cert.KernelIdeal Cert.KernelIdeal.Gen

namespace Cert.KernelIdeal.Blocks

variable (m : (ℓ : Loc nD τ sig) → Buf (Elt Ideal) ℓ)

/-- The five argument arrays on core c, as functions of an index. -/
abbrev argX (c : Dev nD) : S8192x4096.Idx → EReal := m ((c : Thread nD τ).loc main_arg0)
abbrev argA (c : Dev nD) : S4096x16.Idx → EReal := m ((c : Thread nD τ).loc main_arg1)
abbrev argB (c : Dev nD) : S16x4096.Idx → EReal := m ((c : Thread nD τ).loc main_arg2)
abbrev argW (c : Dev nD) : S4096x4096.Idx → EReal := m ((c : Thread nD τ).loc main_arg3)
abbrev argb (c : Dev nD) : S4096.Idx → EReal := m ((c : Thread nD τ).loc main_arg4)

/-! ## The index maps and the arrays the windows cut

Each window's block index at point t, decided once over the 128 grid points; and each of the five arrays, as the
region finds it, as the term @main's operations compute from the arguments. -/

/-- The index maps of the five input windows, decided once over the 128 grid points. -/
private theorem idx0 : ∀ t : Fin cfg0.N, win0_0.index t (0 : Fin 2) = t.val / 16 ∧ win0_0.index t (1 : Fin 2) = t.val % 4 :=
  (by decide +kernel : ∀ t : Fin grid0.N, _)
private theorem idx1 : ∀ t : Fin cfg0.N, win0_1.index t (0 : Fin 2) = (t.val / 4) % 4 ∧ win0_1.index t (1 : Fin 2) = t.val % 4 :=
  (by decide +kernel : ∀ t : Fin grid0.N, _)
private theorem idx2 : ∀ t : Fin cfg0.N, win0_2.index t (0 : Fin 2) = t.val % 4 ∧ win0_2.index t (1 : Fin 2) = 0 :=
  (by decide +kernel : ∀ t : Fin grid0.N, _)
private theorem idx3 : ∀ t : Fin cfg0.N, win0_3.index t (0 : Fin 2) = 0 ∧ win0_3.index t (1 : Fin 2) = (t.val / 4) % 4 :=
  (by decide +kernel : ∀ t : Fin grid0.N, _)
private theorem idx4 : ∀ t : Fin cfg0.N, win0_4.index t (0 : Fin 2) = 0 ∧ win0_4.index t (1 : Fin 2) = (t.val / 4) % 4 :=
  (by decide +kernel : ∀ t : Fin grid0.N, _)

/-- The array window 0 cuts is x with its float format changed. -/
private theorem V0_eq (c : Dev nD) : @Eq (S8192x4096.Idx → EReal) (V m c main_call0_v0)
    (truncf (F := Ideal) (s := S8192x4096) (φ := .f32) .bf16 (argX m c) bitsLt_bf16_f32) := by
  dsimp only [Gen.V, Gen.hostOps0]; after_results; rfl
/-- The array window 1 cuts is W with its float format changed. -/
private theorem V1_eq (c : Dev nD) : @Eq (S4096x4096.Idx → EReal) (V m c main_call0_v1)
    (truncf (F := Ideal) (s := S4096x4096) (φ := .f32) .bf16 (argW m c) bitsLt_bf16_f32) := by
  dsimp only [Gen.V, Gen.hostOps0]; after_results; rfl
/-- The array window 2 cuts is A with its float format changed. -/
private theorem V2_eq (c : Dev nD) : @Eq (S4096x16.Idx → EReal) (V m c main_call0_v2)
    (truncf (F := Ideal) (s := S4096x16) (φ := .f32) .bf16 (argA m c) bitsLt_bf16_f32) := by
  dsimp only [Gen.V, Gen.hostOps0]; after_results; rfl
/-- The array window 3 cuts is B times the splat of the f32 word of 2.0, with its float format changed. -/
private theorem V5_eq (c : Dev nD) : @Eq (S16x4096.Idx → EReal) (V m c main_call0_v5)
    (truncf (F := Ideal) (s := S16x4096) (φ := .f32) .bf16
      (mulf (F := Ideal) (s := S16x4096) (φ := .f32) (argB m c)
        (broadcastInDim S16x4096 ![] bcast_S_S16x4096 (constant (F := Ideal) S_ .f32 0x40000000#32))) bitsLt_bf16_f32) := by
  dsimp only [Gen.V, Gen.hostOps0]; after_results; rfl
/-- The array window 4 cuts is b re-laid row-major as a [1, 4096] matrix. -/
private theorem V6_eq (c : Dev nD) : @Eq (S1x4096.Idx → EReal) (V m c main_call0_v6)
    (shapeCast S1x4096 (argb m c) shapeCasts_S4096_S1x4096) := by
  dsimp only [Gen.V, Gen.hostOps0]; after_results; rfl

/-- The block of x at point t: rows 1024·(t / 16) + r, features 1024·(t % 4) + kk. -/
theorem iblk0_apply (c : Dev nD) (t : Fin cfg0.N) (r kk : Fin 1024) (p : Fin 8192) (k : Fin 4096)
    (hp : p.val = 1024 * (t.val / 16) + r.val) (hk : k.val = 1024 * (t.val % 4) + kk.val) :
    (iblk m c 0 t : Vec Ideal S1024x1024 .bf16) (ix2 r kk) = argX m c (ix2 p k) := by
  unfold iblk
  rw [View.read_apply]
  show V m c main_call0_v0 (((cfg0.win 0).blk t).view.emb (ix2 r kk)) = _
  rw [V0_eq, truncf_apply]
  congr 1
  funext a; apply Fin.ext
  match a with
  | ⟨0, _⟩ => show win0_0.index t 0 * 1024 + 1 * r.val = p.val; rw [(idx0 t).1, hp]; omega
  | ⟨1, _⟩ => show win0_0.index t 1 * 1024 + 1 * kk.val = k.val; rw [(idx0 t).2, hk]; omega

/-- The block of W at point t: rows (output columns) 1024·((t / 4) % 4) + s, features 1024·(t % 4) + kk. -/
theorem iblk1_apply (c : Dev nD) (t : Fin cfg0.N) (s kk : Fin 1024) (q : Fin 4096) (k : Fin 4096)
    (hq : q.val = 1024 * ((t.val / 4) % 4) + s.val) (hk : k.val = 1024 * (t.val % 4) + kk.val) :
    (iblk m c 1 t : Vec Ideal S1024x1024 .bf16) (ix2 s kk) = argW m c (ix2 q k) := by
  unfold iblk
  rw [View.read_apply]
  show V m c main_call0_v1 (((cfg0.win 1).blk t).view.emb (ix2 s kk)) = _
  rw [V1_eq, truncf_apply]
  congr 1
  funext a; apply Fin.ext
  match a with
  | ⟨0, _⟩ => show win0_1.index t 0 * 1024 + 1 * s.val = q.val; rw [(idx1 t).1, hq]; omega
  | ⟨1, _⟩ => show win0_1.index t 1 * 1024 + 1 * kk.val = k.val; rw [(idx1 t).2, hk]; omega

/-- The block of A at point t: features 1024·(t % 4) + kk, all 16 columns. -/
theorem iblk2_apply (c : Dev nD) (t : Fin cfg0.N) (kk : Fin 1024) (ρ : Fin 16) (k : Fin 4096)
    (hk : k.val = 1024 * (t.val % 4) + kk.val) :
    (iblk m c 2 t : Vec Ideal S1024x16 .bf16) (ix2 kk ρ) = argA m c (ix2 k ρ) := by
  unfold iblk
  rw [View.read_apply]
  show V m c main_call0_v2 (((cfg0.win 2).blk t).view.emb (ix2 kk ρ)) = _
  rw [V2_eq, truncf_apply]
  congr 1
  funext a; apply Fin.ext
  match a with
  | ⟨0, _⟩ => show win0_2.index t 0 * 1024 + 1 * kk.val = k.val; rw [(idx2 t).1, hk]; omega
  | ⟨1, _⟩ => show win0_2.index t 1 * 16 + 1 * ρ.val = ρ.val; rw [(idx2 t).2]; omega

/-- The block of the scaled B at point t: all 16 rows, columns 1024·((t / 4) % 4) + s; each entry is B's times 2. -/
theorem iblk3_apply (c : Dev nD) (t : Fin cfg0.N) (ρ : Fin 16) (s : Fin 1024) (q : Fin 4096)
    (hq : q.val = 1024 * ((t.val / 4) % 4) + s.val) :
    (iblk m c 3 t : Vec Ideal S16x1024 .bf16) (ix2 ρ s) = argB m c (ix2 ρ q) * Cert.Spec.two := by
  have he : @Eq S16x4096.Idx (((cfg0.win 3).blk t).view.emb (ix2 ρ s)) (ix2 ρ q) := by
    funext a; apply Fin.ext
    match a with
    | ⟨0, _⟩ => show win0_3.index t 0 * 16 + 1 * ρ.val = ρ.val; rw [(idx3 t).1]; omega
    | ⟨1, _⟩ => show win0_3.index t 1 * 1024 + 1 * s.val = q.val; rw [(idx3 t).2, hq]; omega
  unfold iblk
  rw [View.read_apply]
  show V m c main_call0_v5 (((cfg0.win 3).blk t).view.emb (ix2 ρ s)) = _
  -- the splat reads the scalar's one entry wherever it is read; that entry is the word of 2.0
  rw [V5_eq, he, truncf_apply, mulf_apply, broadcastInDim_apply _ _ _ _ ix0 (fun a => a.elim0), constant_apply]
  rfl

/-- The block of the bias row at point t: columns 1024·((t / 4) % 4) + s of b. -/
theorem iblk4_apply (c : Dev nD) (t : Fin cfg0.N) (z : Fin 1) (s : Fin 1024) (q : Fin 4096)
    (hq : q.val = 1024 * ((t.val / 4) % 4) + s.val) :
    (iblk m c 4 t : Vec Ideal S1x1024 .f32) (ix2 z s) = argb m c (ix1 q) := by
  unfold iblk
  rw [View.read_apply]
  show V m c main_call0_v6 (((cfg0.win 4).blk t).view.emb (ix2 z s)) = _
  rw [V6_eq]
  -- entry (z, 1024·j + s) of the one-row matrix and entry q of b have the same row-major position
  refine shapeCast_apply _ _ _ _ ?_
  rw [Shape.rowMajor_val_one, Shape.rowMajor_val_two]
  show q.val = (win0_4.index t 0 * 1 + 1 * z.val) * 4096 + (win0_4.index t 1 * 1024 + 1 * s.val)
  rw [(idx4 t).1, (idx4 t).2, hq]
  have hz := z.isLt
  omega

/-- Output block t covers rows 1024·(t / 16) + r and columns 1024·((t / 4) % 4) + s. -/
theorem out_index (t : Fin cfg0.N) : win0_5.index t (0 : Fin 2) = t.val / 16 ∧ win0_5.index t (1 : Fin 2) = (t.val / 4) % 4 := by
  exact (by decide +kernel : ∀ t : Fin grid0.N, win0_5.index t (0 : Fin 2) = t.val / 16 ∧ win0_5.index t (1 : Fin 2) = (t.val / 4) % 4) t

end Cert.KernelIdeal.Blocks

end
-- ==== Proof.Pay.lean ====
/-
  The body's arithmetic at an entry, over the extended reals.

  The body has five stored values.  Two are the zero blocks the first feature run resets the accumulators to.  Two add
  to an accumulator the product of the current x block with the current W block (contracting the feature axis of
  both: entry (r, s) sums x(r, kk)·W(s, kk)) and with the current A block (entry (r, ρ) sums x(r, kk)·A(kk, ρ)).  The
  last one, at the last feature run, multiplies the 1024×16 accumulator by the scaled B block, adds the 1024×1024
  accumulator and then the bias row repeated down the rows.  Changes of float format and same-shape casts are the
  identity on extended reals; a product into a zero accumulator is the plain sum.
-/
import proofs.«101576_j49520972922883_2_alg».proof.Proof.Gen.KernelIdeal.Skeleton
import Idealize.ShloMosaic.PureOps.Ideal.Laws
import Idealize.ShloMosaic.Lib.Pipeline.Value
import Idealize.ShloMosaic.Lib.ValueIdx
import Idealize.ShloMosaic.Lib.ValueLayout

noncomputable section

open scoped BigOperators
open Idealize.ShloMosaic Idealize.ShloMosaic.ValueIdx
open Cert.KernelIdeal Cert.KernelIdeal.Gen

namespace Cert.KernelIdeal.Pay

/-- The reset value of the 1024×1024 accumulator is zero everywhere. -/
theorem pay1_apply (r s : Fin 1024) : k0_pay1 (F := Ideal) (ix2 r s) = 0 := by
  unfold k0_pay1
  rw [shapeCast_self, broadcast_apply]
  exact Ideal.ofBits_zero_f32

/-- The reset value of the 1024×16 accumulator is zero everywhere. -/
theorem pay2_apply (r : Fin 1024) (ρ : Fin 16) : k0_pay2 (F := Ideal) (ix2 r ρ) = 0 := by
  unfold k0_pay2
  rw [shapeCast_self, broadcast_apply]
  exact Ideal.ofBits_zero_f32

/-- On its free axis the left operand's index is the output index's coordinate 0. -/
private theorem xw_lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- On its contracted axis the left operand's index is the contraction index's one coordinate. -/
private theorem xw_lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- On its free axis the right operand's index is the output index's coordinate 1. -/
private theorem xw_rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- On its contracted axis the right operand's index is the contraction index's one coordinate. -/
private theorem xw_rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A product contracting the second axis of both operands, into a zero accumulator: entry (r, s) is Σ_kk a(r, kk)·b(s, kk). -/
private theorem xw_apply (a : FVec Ideal S1024x1024 .bf16) (b : FVec Ideal S1024x1024 .bf16) (r : Fin 1024) (s : Fin 1024) :
    FloatOps.matmul dot_S1024x1024_S1024x1024_S1024x1024_1_1_0_0_n_n none a b (constant (F := Ideal) S1024x1024 .f32 0x00000000#32) (ix2 r s)
      = ∑ kk : Fin 1024, a (ix2 r kk) * b (ix2 s kk) := by
  rw [Ideal.matmul_constant_zero_apply, ← Equiv.sum_comp (ValueIdx.contrEquiv1 dot_S1024x1024_S1024x1024_S1024x1024_1_1_0_0_n_n 1024 rfl rfl).symm]
  refine Finset.sum_congr rfl fun kk _ => ?_
  have hk := ValueIdx.contrEquiv1_symm_val dot_S1024x1024_S1024x1024_S1024x1024_1_1_0_0_n_n 1024 rfl rfl kk
  have el : dot_S1024x1024_S1024x1024_S1024x1024_1_1_0_0_n_n.lhsIdx (ix2 r s) ((ValueIdx.contrEquiv1 dot_S1024x1024_S1024x1024_S1024x1024_1_1_0_0_n_n 1024 rfl rfl).symm kk) = ix2 r kk := funext fun x => Fin.ext (by
    match x with
    | ⟨0, _⟩ => exact xw_lhs_0 _ _
    | ⟨1, _⟩ => exact (xw_lhs_1 _ _).trans hk)
  have er : dot_S1024x1024_S1024x1024_S1024x1024_1_1_0_0_n_n.rhsIdx (ix2 r s) ((ValueIdx.contrEquiv1 dot_S1024x1024_S1024x1024_S1024x1024_1_1_0_0_n_n 1024 rfl rfl).symm kk) = ix2 s kk := funext fun x => Fin.ext (by
    match x with
    | ⟨0, _⟩ => exact xw_rhs_0 _ _
    | ⟨1, _⟩ => exact (xw_rhs_1 _ _).trans hk)
  rw [el, er]

/-- The 1024×1024 accumulator after a point: what it held plus Σ_kk x(r, kk)·W(s, kk). -/
theorem pay4_apply (v3 v5 : Vec Ideal S1024x1024 .bf16) (v10 : Vec Ideal S1024x1024 .f32) (r s : Fin 1024) :
    k0_pay4 v3 v5 v10 (ix2 r s) = v10 (ix2 r s) + ∑ kk : Fin 1024, v3 (ix2 r kk) * v5 (ix2 s kk) := by
  unfold k0_pay4 k0_pay3
  simp only [shapeCast_self, addf_apply, matmul]
  rw [xw_apply]

/-- On its free axis the left operand's index is the output index's coordinate 0. -/
private theorem xa_lhs_0 (i : S1024x16.Idx) (q : dot_S1024x1024_S1024x16_S1024x16_1_0_0_1_n_n.contr.Idx) :
    (dot_S1024x1024_S1024x16_S1024x16_1_0_0_1_n_n.lhsIdx i q 0).val = (i 0).val := by
  unfold DotDims.lhsIdx
  rw [dif_neg (show ¬(0 : Fin S1024x1024.rank) ∈ dot_S1024x1024_S1024x16_S1024x16_1_0_0_1_n_n.lhsBatch by decide), dif_pos (show (0 : Fin S1024x1024.rank) ∈ dot_S1024x1024_S1024x16_S1024x16_1_0_0_1_n_n.lhsNonContracting by decide)]
  rfl
/-- On its contracted axis the left operand's index is the contraction index's one coordinate. -/
private theorem xa_lhs_1 (i : S1024x16.Idx) (q : dot_S1024x1024_S1024x16_S1024x16_1_0_0_1_n_n.contr.Idx) :
    (dot_S1024x1024_S1024x16_S1024x16_1_0_0_1_n_n.lhsIdx i q 1).val = (q ⟨0, by decide⟩).val :=
  dot_S1024x1024_S1024x16_S1024x16_1_0_0_1_n_n.lhsIdx_val_of_single rfl i q
/-- On its free axis the right operand's index is the output index's coordinate 1. -/
private theorem xa_rhs_1 (i : S1024x16.Idx) (q : dot_S1024x1024_S1024x16_S1024x16_1_0_0_1_n_n.contr.Idx) :
    (dot_S1024x1024_S1024x16_S1024x16_1_0_0_1_n_n.rhsIdx i q 1).val = (i 1).val := by
  unfold DotDims.rhsIdx
  rw [dif_neg (show ¬(1 : Fin S1024x16.rank) ∈ dot_S1024x1024_S1024x16_S1024x16_1_0_0_1_n_n.rhsBatch by decide), dif_pos (show (1 : Fin S1024x16.rank) ∈ dot_S1024x1024_S1024x16_S1024x16_1_0_0_1_n_n.rhsNonContracting by decide)]
  rfl
/-- On its contracted axis the right operand's index is the contraction index's one coordinate. -/
private theorem xa_rhs_0 (i : S1024x16.Idx) (q : dot_S1024x1024_S1024x16_S1024x16_1_0_0_1_n_n.contr.Idx) :
    (dot_S1024x1024_S1024x16_S1024x16_1_0_0_1_n_n.rhsIdx i q 0).val = (q ⟨0, by decide⟩).val :=
  dot_S1024x1024_S1024x16_S1024x16_1_0_0_1_n_n.rhsIdx_val_of_single rfl i q

/-- A plain 1024×1024 by 1024×16 product into a zero accumulator: entry (r, s) is Σ_kk a(r, kk)·b(kk, s). -/
private theorem xa_apply (a : FVec Ideal S1024x1024 .bf16) (b : FVec Ideal S1024x16 .bf16) (r : Fin 1024) (s : Fin 16) :
    FloatOps.matmul dot_S1024x1024_S1024x16_S1024x16_1_0_0_1_n_n none a b (constant (F := Ideal) S1024x16 .f32 0x00000000#32) (ix2 r s)
      = ∑ kk : Fin 1024, a (ix2 r kk) * b (ix2 kk s) := by
  rw [Ideal.matmul_constant_zero_apply, ← Equiv.sum_comp (ValueIdx.contrEquiv1 dot_S1024x1024_S1024x16_S1024x16_1_0_0_1_n_n 1024 rfl rfl).symm]
  refine Finset.sum_congr rfl fun kk _ => ?_
  have hk := ValueIdx.contrEquiv1_symm_val dot_S1024x1024_S1024x16_S1024x16_1_0_0_1_n_n 1024 rfl rfl kk
  have el : dot_S1024x1024_S1024x16_S1024x16_1_0_0_1_n_n.lhsIdx (ix2 r s) ((ValueIdx.contrEquiv1 dot_S1024x1024_S1024x16_S1024x16_1_0_0_1_n_n 1024 rfl rfl).symm kk) = ix2 r kk := funext fun x => Fin.ext (by
    match x with
    | ⟨0, _⟩ => exact xa_lhs_0 _ _
    | ⟨1, _⟩ => exact (xa_lhs_1 _ _).trans hk)
  have er : dot_S1024x1024_S1024x16_S1024x16_1_0_0_1_n_n.rhsIdx (ix2 r s) ((ValueIdx.contrEquiv1 dot_S1024x1024_S1024x16_S1024x16_1_0_0_1_n_n 1024 rfl rfl).symm kk) = ix2 kk s := funext fun x => Fin.ext (by
    match x with
    | ⟨0, _⟩ => exact (xa_rhs_0 _ _).trans hk
    | ⟨1, _⟩ => exact xa_rhs_1 _ _)
  rw [el, er]

/-- The 1024×16 accumulator after a point: what it held plus Σ_kk x(r, kk)·A(kk, ρ). -/
theorem pay5_apply (v3 : Vec Ideal S1024x1024 .bf16) (v7 : Vec Ideal S1024x16 .bf16) (v15 : Vec Ideal S1024x16 .f32)
    (r : Fin 1024) (ρ : Fin 16) :
    k0_pay5 v3 v7 v15 (ix2 r ρ) = v15 (ix2 r ρ) + ∑ kk : Fin 1024, v3 (ix2 r kk) * v7 (ix2 kk ρ) := by
  unfold k0_pay5 k0_pay3
  simp only [shapeCast_self, addf_apply, matmul]
  rw [xa_apply]

/-- On its free axis the left operand's index is the output index's coordinate 0. -/
private theorem ab_lhs_0 (i : S1024x1024.Idx) (q : dot_S1024x16_S16x1024_S1024x1024_1_0_0_1_n_n.contr.Idx) :
    (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide), dif_pos (show (0 : Fin S1024x16.rank) ∈ dot_S1024x16_S16x1024_S1024x1024_1_0_0_1_n_n.lhsNonContracting by decide)]
  rfl
/-- On its contracted axis the left operand's index is the contraction index's one coordinate. -/
private theorem ab_lhs_1 (i : S1024x1024.Idx) (q : dot_S1024x16_S16x1024_S1024x1024_1_0_0_1_n_n.contr.Idx) :
    (dot_S1024x16_S16x1024_S1024x1024_1_0_0_1_n_n.lhsIdx i q 1).val = (q ⟨0, by decide⟩).val :=
  dot_S1024x16_S16x1024_S1024x1024_1_0_0_1_n_n.lhsIdx_val_of_single rfl i q
/-- On its free axis the right operand's index is the output index's coordinate 1. -/
private theorem ab_rhs_1 (i : S1024x1024.Idx) (q : dot_S1024x16_S16x1024_S1024x1024_1_0_0_1_n_n.contr.Idx) :
    (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide), dif_pos (show (1 : Fin S16x1024.rank) ∈ dot_S1024x16_S16x1024_S1024x1024_1_0_0_1_n_n.rhsNonContracting by decide)]
  rfl
/-- On its contracted axis the right operand's index is the contraction index's one coordinate. -/
private theorem ab_rhs_0 (i : S1024x1024.Idx) (q : dot_S1024x16_S16x1024_S1024x1024_1_0_0_1_n_n.contr.Idx) :
    (dot_S1024x16_S16x1024_S1024x1024_1_0_0_1_n_n.rhsIdx i q 0).val = (q ⟨0, by decide⟩).val :=
  dot_S1024x16_S16x1024_S1024x1024_1_0_0_1_n_n.rhsIdx_val_of_single rfl i q

/-- A plain 1024×16 by 16×1024 product into a zero accumulator: entry (r, s) is Σ_kk a(r, kk)·b(kk, s). -/
private theorem ab_apply (a : FVec Ideal S1024x16 .bf16) (b : FVec Ideal S16x1024 .bf16) (r : Fin 1024) (s : Fin 1024) :
    FloatOps.matmul dot_S1024x16_S16x1024_S1024x1024_1_0_0_1_n_n none a b (constant (F := Ideal) S1024x1024 .f32 0x00000000#32) (ix2 r s)
      = ∑ kk : Fin 16, a (ix2 r kk) * b (ix2 kk s) := by
  rw [Ideal.matmul_constant_zero_apply, ← Equiv.sum_comp (ValueIdx.contrEquiv1 dot_S1024x16_S16x1024_S1024x1024_1_0_0_1_n_n 16 rfl rfl).symm]
  refine Finset.sum_congr rfl fun kk _ => ?_
  have hk := ValueIdx.contrEquiv1_symm_val dot_S1024x16_S16x1024_S1024x1024_1_0_0_1_n_n 16 rfl rfl kk
  have el : dot_S1024x16_S16x1024_S1024x1024_1_0_0_1_n_n.lhsIdx (ix2 r s) ((ValueIdx.contrEquiv1 dot_S1024x16_S16x1024_S1024x1024_1_0_0_1_n_n 16 rfl rfl).symm kk) = ix2 r kk := funext fun x => Fin.ext (by
    match x with
    | ⟨0, _⟩ => exact ab_lhs_0 _ _
    | ⟨1, _⟩ => exact (ab_lhs_1 _ _).trans hk)
  have er : dot_S1024x16_S16x1024_S1024x1024_1_0_0_1_n_n.rhsIdx (ix2 r s) ((ValueIdx.contrEquiv1 dot_S1024x16_S16x1024_S1024x1024_1_0_0_1_n_n 16 rfl rfl).symm kk) = ix2 kk s := funext fun x => Fin.ext (by
    match x with
    | ⟨0, _⟩ => exact (ab_rhs_0 _ _).trans hk
    | ⟨1, _⟩ => exact ab_rhs_1 _ _)
  rw [el, er]

/-- The one-row block repeated down 1024 rows reads, at entry (r, s), the row's entry s. -/
private theorem row_apply (v : FVec Ideal S1x1024 .f32) (r s : Fin 1024) :
    broadcastTo S1024x1024 v broadcasts_S1x1024_S1024x1024 (ix2 r s) = v (ix2 (0 : Fin 1) s) :=
  broadcastTo_apply v broadcasts_S1x1024_S1024x1024 (ix2 r s) (ix2 (0 : Fin 1) s) (fun a => by
    match a with
    | ⟨0, _⟩ => rfl
    | ⟨1, _⟩ => rfl)

/-- The output block: the 1024×1024 accumulator plus Σ_ρ xa(r, ρ)·B'(ρ, s), plus the bias row's entry s. -/
theorem pay6_apply (v24 : Vec Ideal S16x1024 .bf16) (v26 : Vec Ideal S1024x16 .f32) (v29 : Vec Ideal S1024x1024 .f32)
    (v31 : Vec Ideal S1x1024 .f32) (r s : Fin 1024) :
    k0_pay6 v24 v26 v29 v31 (ix2 r s)
      = (v29 (ix2 r s) + ∑ ρ : Fin 16, v26 (ix2 r ρ) * v24 (ix2 ρ s)) + v31 (ix2 (0 : Fin 1) s) := by
  unfold k0_pay6
  simp only [shapeCast_self, addf_apply, matmul]
  rw [ab_apply, row_apply]
  simp only [truncf_apply]

end Cert.KernelIdeal.Pay

end
-- ==== Proof.Pieces.lean ====
/-
  What the body leaves in the two accumulators and in the output block, case by case, as the body's stored values.

  At the first feature run both accumulators are reset to zero blocks and then updated, so they end at the update of
  the zero blocks; at the middle runs they end at the update of what the point before left; at the last run the same,
  and the output block is the final stored value computed from the two freshly updated accumulators, the scaled B
  block and the bias block.  Each is the last covering store of its buffer read back whole.
-/
import proofs.«101576_j49520972922883_2_alg».proof.Proof.Gen.KernelIdeal.Frame
import Idealize.ShloMosaic.Lib.Pipeline.Value
import Idealize.ShloMosaic.Lib.Tactic

noncomputable section

open scoped BigOperators
open Idealize.ShloMosaic Idealize.ShloMosaic.TcCoe Idealize.ShloMosaic.Tactic Idealize.SL.Sem
open Cert.KernelIdeal Cert.KernelIdeal.Gen

namespace Cert.KernelIdeal.Pieces

variable {F : FTy → Type} [FloatOps F]

theorem hz : (![0, 0] : Fin 2 → Nat) = fun _ => 0 := funext fun a => by fin_cases a <;> rfl

/-- First run: the 1024×1024 accumulator ends at the update of the zero block. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- First run: the 1024×16 accumulator ends at the update of the zero block. -/
theorem xa_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg5.read_unread, View.ld_unit_zero (S := S1024x1024) hz, View.ld_unit_zero (S := S1024x16) hz]

/-- Middle runs: the 1024×1024 accumulator ends at the update of what it held. -/
theorem acc_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg9.read_unread, View.ld_unit_zero (S := S1024x1024) hz]

/-- Middle runs: the 1024×16 accumulator ends at the update of what it held. -/
theorem xa_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg5.read_unread, harg10.read_unread, View.ld_unit_zero (S := S1024x1024) hz, View.ld_unit_zero (S := S1024x16) hz]

/-- Last run: the 1024×1024 accumulator ends at the update of what it held. -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg9.read_unread, View.ld_unit_zero (S := S1024x1024) hz]

/-- Last run: the 1024×16 accumulator ends at the update of what it held. -/
theorem xa_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg5.read_unread, harg10.read_unread, View.ld_unit_zero (S := S1024x1024) hz, View.ld_unit_zero (S := S1024x16) hz]

/-- Last run: the output block is the final value of the two updated accumulators, the scaled B block and the bias block. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x16 .bf16) (harg5 : arg5.IsWhole) (arg6 : Memref sig .tc .vmem S16x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x1024 .bf16) (x1 : Vec F S1024x1024 .bf16) (x2 : Vec F S1024x16 .bf16) (x3 : Vec F S16x1024 .bf16) (x4 : Vec F S1x1024 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 x2 xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz, View.readCov_unit_zero (S := S1024x16) _ hz, View.readCov_unit_zero (S := S1024x1024) _ hz]
  simp only [View.readAt_eq_ld, harg3.read_unread, harg4.read_unread, harg5.read_unread, harg6.read_unread, harg7.read_unread, harg9.read_unread, harg10.read_unread,
    View.ld_unit_zero (S := S1024x1024) hz, View.ld_unit_zero (S := S1024x16) hz, View.ld_unit_zero (S := S16x1024) hz, View.ld_unit_zero (S := S1x1024) hz]

end Cert.KernelIdeal.Pieces

end
-- ==== Proof.Accum.lean ====
/-
  The two accumulators, and the output block, at the grid points of one run of four feature blocks.

  Fix a block of token rows and a block of output columns.  The four grid points that visit it, one per run of 1024
  features, come one after the other.  The first resets both accumulators to zero and adds the first run's partial
  inner products; each later point adds its own run's to what the point before left.  So after the run with
  number k the accumulators hold the partial sums of the runs 0 … k, accumulated in that order from zero, and at the
  last run the output block is: the full 4096-feature product with W, plus the low-rank product through the scaled
  B block, plus the bias entry.
-/
import proofs.«101576_j49520972922883_2_alg».proof.Proof.Gen.KernelIdeal.Frame
import proofs.«101576_j49520972922883_2_alg».proof.Proof.Spec
import proofs.«101576_j49520972922883_2_alg».proof.Proof.Pay
import proofs.«101576_j49520972922883_2_alg».proof.Proof.Pieces
import proofs.«101576_j49520972922883_2_alg».proof.Proof.Blocks

noncomputable section

open scoped BigOperators
open Idealize.ShloMosaic Idealize.ShloMosaic.TcCoe Idealize.SL.Sem Idealize.ShloMosaic.ValueIdx
open Cert.KernelIdeal Cert.KernelIdeal.Gen Cert.KernelIdeal.Blocks Cert.Spec

namespace Cert.KernelIdeal.Accum

variable (m : (ℓ : Loc nD τ sig) → Buf (Elt Ideal) ℓ)

/-- One run's partial inner product of row p of x with row q of W. -/
def runW (c : Dev nD) (p : Fin 8192) (q : Fin 4096) (kb : Fin 4) : EReal :=
  ∑ kk : Fin 1024, argX m c (ix2 p (feat kb kk)) * argW m c (ix2 q (feat kb kk))

/-- One run's partial inner product of row p of x with column ρ of A. -/
def runA (c : Dev nD) (p : Fin 8192) (ρ : Fin 16) (kb : Fin 4) : EReal :=
  ∑ kk : Fin 1024, argX m c (ix2 p (feat kb kk)) * argA m c (ix2 (feat kb kk) ρ)

/-- The update of the 1024×1024 accumulator at point t adds run (t % 4)'s partial product with W. -/
theorem upd_W (c : Dev nD) (t : Fin cfg0.N) (kb : Fin 4) (hkb : kb.val = t.val % 4) (xs0 : Vec Ideal S1024x1024 .f32)
    (r s : Fin 1024) (p : Fin 8192) (q : Fin 4096) (hp : p.val = 1024 * (t.val / 16) + r.val)
    (hq : q.val = 1024 * ((t.val / 4) % 4) + s.val) :
    k0_pay4 (iblk m c 0 t) (iblk m c 1 t) xs0 (ix2 r s) = xs0 (ix2 r s) + runW m c p q kb := by
  rw [Pay.pay4_apply]
  unfold runW
  refine congrArg (xs0 (ix2 r s) + ·) (Finset.sum_congr rfl fun kk _ => ?_)
  rw [iblk0_apply m c t r kk p (feat kb kk) hp (by show 1024 * kb.val + kk.val = _; rw [hkb]),
    iblk1_apply m c t s kk q (feat kb kk) hq (by show 1024 * kb.val + kk.val = _; rw [hkb])]

/-- The update of the 1024×16 accumulator at point t adds run (t % 4)'s partial product with A. -/
theorem upd_A (c : Dev nD) (t : Fin cfg0.N) (kb : Fin 4) (hkb : kb.val = t.val % 4) (xs1 : Vec Ideal S1024x16 .f32)
    (r : Fin 1024) (ρ : Fin 16) (p : Fin 8192) (hp : p.val = 1024 * (t.val / 16) + r.val) :
    k0_pay5 (iblk m c 0 t) (iblk m c 2 t) xs1 (ix2 r ρ) = xs1 (ix2 r ρ) + runA m c p ρ kb := by
  rw [Pay.pay5_apply]
  unfold runA
  refine congrArg (xs1 (ix2 r ρ) + ·) (Finset.sum_congr rfl fun kk _ => ?_)
  rw [iblk0_apply m c t r kk p (feat kb kk) hp (by show 1024 * kb.val + kk.val = _; rw [hkb]),
    iblk2_apply m c t kk ρ (feat kb kk) (by show 1024 * kb.val + kk.val = _; rw [hkb])]

/-- After a point of the first run the 1024×1024 accumulator holds the point's update of the zero block. -/
theorem after_first_W (c : Dev nD) (t : Fin cfg0.N) (h0 : t.val % 4 = 0) :
    (outsAt0 m c t.val t.isLt).2.1 = k0_pay4 (iblk m c 0 t) (iblk m c 1 t) (k0_pay1 (F := Ideal)) := by
  have h1 : ¬t.val % 4 = 3 := by omega
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-- After a point of the first run the 1024×16 accumulator holds the point's update of the zero block. -/
theorem after_first_A (c : Dev nD) (t : Fin cfg0.N) (h0 : t.val % 4 = 0) :
    (outsAt0 m c t.val t.isLt).2.2 = k0_pay5 (iblk m c 0 t) (iblk m c 2 t) (k0_pay2 (F := Ideal)) := by
  have h1 : ¬t.val % 4 = 3 := by omega
  rw [outsAt0_A m c t h0 h1]
  dsimp only
  exact Pieces.xa_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

/-- After a point of a later run the 1024×1024 accumulator holds the point's update of what the point before left. -/
theorem after_later_W (c : Dev nD) (t : Fin cfg0.N) (h0 : ¬t.val % 4 = 0) :
    (outsAt0 m c t.val t.isLt).2.1 = k0_pay4 (iblk m c 0 t) (iblk m c 1 t) (outsAt0 m c (t.val - 1) (Nat.lt_of_le_of_lt (Nat.sub_le _ _) t.isLt)).2.1 := by
  by_cases h1 : t.val % 4 = 3
  · rw [outsAt0_C m c t h0 h1]
    dsimp only
    exact Pieces.acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.acc_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- After a point of a later run the 1024×16 accumulator holds the point's update of what the point before left. -/
theorem after_later_A (c : Dev nD) (t : Fin cfg0.N) (h0 : ¬t.val % 4 = 0) :
    (outsAt0 m c t.val t.isLt).2.2 = k0_pay5 (iblk m c 0 t) (iblk m c 2 t) (outsAt0 m c (t.val - 1) (Nat.lt_of_le_of_lt (Nat.sub_le _ _) t.isLt)).2.2 := by
  by_cases h1 : t.val % 4 = 3
  · rw [outsAt0_C m c t h0 h1]
    dsimp only
    exact Pieces.xa_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.xa_mid (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- After a point of the last run the output block is the final value of the two updated accumulators, the scaled B
    block and the bias block. -/
theorem out_at_last (c : Dev nD) (t : Fin cfg0.N) (h3 : t.val % 4 = 3) :
    (outsAt0 m c t.val t.isLt).1
      = k0_pay6 (iblk m c 3 t) (k0_pay5 (iblk m c 0 t) (iblk m c 2 t) (outsAt0 m c (t.val - 1) (Nat.lt_of_le_of_lt (Nat.sub_le _ _) t.isLt)).2.2)
          (k0_pay4 (iblk m c 0 t) (iblk m c 1 t) (outsAt0 m c (t.val - 1) (Nat.lt_of_le_of_lt (Nat.sub_le _ _) t.isLt)).2.1) (iblk m c 4 t) := by
  have h0 : ¬t.val % 4 = 0 := by omega
  rw [outsAt0_C m c t h0 h3]
  dsimp only
  exact Pieces.out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- The accumulators entry by entry.  For a point t of run k = t % 4, row p = 1024·(t / 16) + r, column
    q = 1024·((t / 4) % 4) + s: after the first run they hold 0 plus run 0's partial products. -/
theorem acc_run0 (c : Dev nD) (t : Fin cfg0.N) (h : t.val % 4 = 0) (r s : Fin 1024) (p : Fin 8192) (q : Fin 4096)
    (hp : p.val = 1024 * (t.val / 16) + r.val) (hq : q.val = 1024 * ((t.val / 4) % 4) + s.val) :
    (outsAt0 m c t.val t.isLt).2.1 (ix2 r s) = 0 + runW m c p q 0 := by
  rw [after_first_W m c t h, upd_W m c t 0 (by rw [h]; rfl) _ r s p q hp hq, Pay.pay1_apply]

theorem xa_run0 (c : Dev nD) (t : Fin cfg0.N) (h : t.val % 4 = 0) (r : Fin 1024) (ρ : Fin 16) (p : Fin 8192)
    (hp : p.val = 1024 * (t.val / 16) + r.val) :
    (outsAt0 m c t.val t.isLt).2.2 (ix2 r ρ) = 0 + runA m c p ρ 0 := by
  rw [after_first_A m c t h, upd_A m c t 0 (by rw [h]; rfl) _ r ρ p hp, Pay.pay2_apply]

/-- A later run adds its partial products to what the point before left. -/
theorem acc_step (c : Dev nD) (t t' : Fin cfg0.N) (ht' : t'.val = t.val - 1) (h0 : ¬t.val % 4 = 0) (kb : Fin 4)
    (hkb : kb.val = t.val % 4) (r s : Fin 1024) (p : Fin 8192) (q : Fin 4096)
    (hp : p.val = 1024 * (t.val / 16) + r.val) (hq : q.val = 1024 * ((t.val / 4) % 4) + s.val) :
    (outsAt0 m c t.val t.isLt).2.1 (ix2 r s) = (outsAt0 m c t'.val t'.isLt).2.1 (ix2 r s) + runW m c p q kb := by
  obtain ⟨n', hn'⟩ := t'
  obtain rfl : n' = t.val - 1 := ht'
  rw [after_later_W m c t h0, upd_W m c t kb hkb _ r s p q hp hq]

theorem xa_step (c : Dev nD) (t t' : Fin cfg0.N) (ht' : t'.val = t.val - 1) (h0 : ¬t.val % 4 = 0) (kb : Fin 4)
    (hkb : kb.val = t.val % 4) (r : Fin 1024) (ρ : Fin 16) (p : Fin 8192)
    (hp : p.val = 1024 * (t.val / 16) + r.val) :
    (outsAt0 m c t.val t.isLt).2.2 (ix2 r ρ) = (outsAt0 m c t'.val t'.isLt).2.2 (ix2 r ρ) + runA m c p ρ kb := by
  obtain ⟨n', hn'⟩ := t'
  obtain rfl : n' = t.val - 1 := ht'
  rw [after_later_A m c t h0, upd_A m c t kb hkb _ r ρ p hp]

/-- After the third of the four runs (t % 4 = 2) the accumulators hold runs 0, 1, 2 accumulated from zero. -/
theorem acc_run2 (c : Dev nD) (t : Fin cfg0.N) (h : t.val % 4 = 2) (r s : Fin 1024) (p : Fin 8192) (q : Fin 4096)
    (hp : p.val = 1024 * (t.val / 16) + r.val) (hq : q.val = 1024 * ((t.val / 4) % 4) + s.val) :
    (outsAt0 m c t.val t.isLt).2.1 (ix2 r s) = ((0 + runW m c p q 0) + runW m c p q 1) + runW m c p q 2 := by
  have hN : t.val < 128 := lt_of_lt_of_eq t.isLt (show cfg0.N = 128 from N_0)
  have hN' : cfg0.N = 128 := N_0
  let t1 : Fin cfg0.N := ⟨t.val - 1, by omega⟩
  let t0 : Fin cfg0.N := ⟨t.val - 2, by omega⟩
  rw [acc_step m c t t1 rfl (by omega) 2 (by rw [h]; rfl) r s p q hp hq,
    acc_step m c t1 t0 (by show t.val - 2 = t.val - 1 - 1; omega) (by show ¬(t.val - 1) % 4 = 0; omega) 1
      (by show 1 = (t.val - 1) % 4; omega) r s p q (by show p.val = 1024 * ((t.val - 1) / 16) + r.val; omega)
      (by show q.val = 1024 * (((t.val - 1) / 4) % 4) + s.val; omega),
    acc_run0 m c t0 (by show (t.val - 2) % 4 = 0; omega) r s p q
      (by show p.val = 1024 * ((t.val - 2) / 16) + r.val; omega)
      (by show q.val = 1024 * (((t.val - 2) / 4) % 4) + s.val; omega)]

theorem xa_run2 (c : Dev nD) (t : Fin cfg0.N) (h : t.val % 4 = 2) (r : Fin 1024) (ρ : Fin 16) (p : Fin 8192)
    (hp : p.val = 1024 * (t.val / 16) + r.val) :
    (outsAt0 m c t.val t.isLt).2.2 (ix2 r ρ) = ((0 + runA m c p ρ 0) + runA m c p ρ 1) + runA m c p ρ 2 := by
  have hN : t.val < 128 := lt_of_lt_of_eq t.isLt (show cfg0.N = 128 from N_0)
  have hN' : cfg0.N = 128 := N_0
  let t1 : Fin cfg0.N := ⟨t.val - 1, by omega⟩
  let t0 : Fin cfg0.N := ⟨t.val - 2, by omega⟩
  rw [xa_step m c t t1 rfl (by omega) 2 (by rw [h]; rfl) r ρ p hp,
    xa_step m c t1 t0 (by show t.val - 2 = t.val - 1 - 1; omega) (by show ¬(t.val - 1) % 4 = 0; omega) 1
      (by show 1 = (t.val - 1) % 4; omega) r ρ p (by show p.val = 1024 * ((t.val - 1) / 16) + r.val; omega),
    xa_run0 m c t0 (by show (t.val - 2) % 4 = 0; omega) r ρ p
      (by show p.val = 1024 * ((t.val - 2) / 16) + r.val; omega)]

/-- THE OUTPUT BLOCK, entry by entry, at a point of the last run: the run-by-run arrangement of the value. -/
theorem out_entry (c : Dev nD) (t : Fin cfg0.N) (h3 : t.val % 4 = 3) (r s : Fin 1024) (p : Fin 8192) (q : Fin 4096)
    (hp : p.val = 1024 * (t.val / 16) + r.val) (hq : q.val = 1024 * ((t.val / 4) % 4) + s.val) :
    (outsAt0 m c t.val t.isLt).1 (ix2 r s)
      = ((((0 + runW m c p q 0) + runW m c p q 1) + runW m c p q 2) + runW m c p q 3
          + ∑ ρ : Fin 16, ((((0 + runA m c p ρ 0) + runA m c p ρ 1) + runA m c p ρ 2) + runA m c p ρ 3)
              * (argB m c (ix2 ρ q) * two))
        + argb m c (ix1 q) := by
  have hN : t.val < 128 := lt_of_lt_of_eq t.isLt (show cfg0.N = 128 from N_0)
  have hN' : cfg0.N = 128 := N_0
  let t2 : Fin cfg0.N := ⟨t.val - 1, by omega⟩
  have hp2 : p.val = 1024 * (t2.val / 16) + r.val := by show p.val = 1024 * ((t.val - 1) / 16) + r.val; omega
  have hq2 : q.val = 1024 * ((t2.val / 4) % 4) + s.val := by show q.val = 1024 * (((t.val - 1) / 4) % 4) + s.val; omega
  have h2 : t2.val % 4 = 2 := by show (t.val - 1) % 4 = 2; omega
  rw [out_at_last m c t h3, Pay.pay6_apply, upd_W m c t 3 (by rw [h3]; rfl) _ r s p q hp hq,
    iblk4_apply m c t 0 s q hq]
  show ((outsAt0 m c t2.val t2.isLt).2.1 (ix2 r s) + runW m c p q 3 + _) + _ = _
  rw [acc_run2 m c t2 h2 r s p q hp2 hq2]
  refine congrArg (fun z => ((((0 + runW m c p q 0) + runW m c p q 1) + runW m c p q 2) + runW m c p q 3 + z) + argb m c (ix1 q))
    (Finset.sum_congr rfl fun ρ _ => ?_)
  rw [upd_A m c t 3 (by rw [h3]; rfl) _ r ρ p hp, iblk3_apply m c t ρ s q hq]
  show ((outsAt0 m c t2.val t2.isLt).2.2 (ix2 r ρ) + runA m c p ρ 3) * _ = _
  rw [xa_run2 m c t2 h2 r ρ p hp2]

end Cert.KernelIdeal.Accum

end
-- ==== Proof.KValue.lean ====
/-
  The kernel's result array after the run is the value of the specification at every entry.

  The output block of token rows i and output columns j is written back once, at the point of the last feature run,
  and there it holds the run-by-run arrangement of the value, which is the value.  The 8 × 4 blocks tile the array: the
  entry at row p and column q lies in the block written at point 16·(p / 1024) + 4·(q / 1024) + 3.
-/
import proofs.«101576_j49520972922883_2_alg».proof.Proof.Gen.KernelIdeal.Value
import proofs.«101576_j49520972922883_2_alg».proof.Proof.Spec
import proofs.«101576_j49520972922883_2_alg».proof.Proof.Blocks
import proofs.«101576_j49520972922883_2_alg».proof.Proof.Accum

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks

namespace Cert.KernelIdeal.KValue

variable (m : (ℓ : Loc nD τ sig) → Buf (Elt Ideal) ℓ) (ρ : Dev nD → PrngReg)

/-- The value of the specification at the five argument arrays of core c. -/
abbrev result (c : Dev nD) : S8192x4096.Idx → EReal :=
  Cert.Spec.G (argX m c) (argA m c) (argB m c) (argW m c) (argb m c)

/-- The output block at a point of the last run holds the value, entry by entry. -/
theorem entry_eq (c : Dev nD) (t : Fin cfg0.N) (h3 : t.val % 4 = 3) (r s : Fin 1024) (p : Fin 8192) (q : Fin 4096)
    (hp : p.val = 1024 * (t.val / 16) + r.val) (hq : q.val = 1024 * ((t.val / 4) % 4) + s.val) :
    (outsAt0 m c t.val t.isLt).1 (ix2 r s) = result m c (ix2 p q) := by
  rw [Accum.out_entry m c t h3 r s p q hp hq]
  unfold Accum.runW Accum.runA
  exact Cert.Spec.runs_eq (fun k => argX m c (ix2 p k) * argW m c (ix2 q k))
    (fun ρ k => argX m c (ix2 p k) * argA m c (ix2 k ρ)) (fun ρ => argB m c (ix2 ρ q)) (argb m c (ix1 q))

/-- What the point of the last run writes back is its block of the value. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have hN : t.val < 128 := lt_of_lt_of_eq t.isLt (show cfg0.N = 128 from N_0)
  rw [Value.flushed5]
  funext j
  show (outsAt0 m c t.val t.isLt).1 j = result m c (((cfg0.win 5).blk t).view.emb j)
  have hj0 : (j 0).val < 1024 := (j 0).isLt
  have hj1 : (j 1).val < 1024 := (j 1).isLt
  obtain ⟨r, hr⟩ : ∃ r : Fin 1024, r.val = (j 0).val := ⟨⟨_, hj0⟩, rfl⟩
  obtain ⟨s, hs⟩ : ∃ s : Fin 1024, s.val = (j 1).val := ⟨⟨_, hj1⟩, rfl⟩
  obtain ⟨p, hp⟩ : ∃ p : Fin 8192, p.val = 1024 * (t.val / 16) + r.val := ⟨⟨1024 * (t.val / 16) + r.val, by omega⟩, rfl⟩
  obtain ⟨q, hq⟩ : ∃ q : Fin 4096, q.val = 1024 * ((t.val / 4) % 4) + s.val := ⟨⟨1024 * ((t.val / 4) % 4) + s.val, by omega⟩, rfl⟩
  have eemb : ((cfg0.win 5).blk t).view.emb j = ix2 p q := funext fun a => Fin.ext (by
    match a with
    | ⟨0, _⟩ => show win0_5.index t (0 : Fin 2) * 1024 + 1 * (j 0).val = p.val; rw [(out_index t).1, hp, hr]; omega
    | ⟨1, _⟩ => show win0_5.index t (1 : Fin 2) * 1024 + 1 * (j 1).val = q.val; rw [(out_index t).2, hq, hs]; omega)
  have ej : j = ix2 r s := funext fun a => Fin.ext (by
    match a with
    | ⟨0, _⟩ => exact hr.symm
    | ⟨1, _⟩ => exact hs.symm)
  rw [eemb, ej]
  exact entry_eq m c t h3 r s p q hp hq

/-- An index of the array is in point t's block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v0).slice (win0_5.rect t)).set ↔ _
  rw [View.set_slice_whole, Rect.mem_set_unit]
  exact Iff.rfl

/-- Every entry lies in the block some point of a last run writes back. -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 128 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by omega⟩, rfl⟩
  refine ⟨t, (flush0_5 t).mpr (by omega), ?_⟩
  rw [mem_blk]
  intro a
  match a with
  | ⟨0, _⟩ =>
    show win0_5.index t (0 : Fin 2) * 1024 ≤ (i 0).val ∧ (i 0).val < win0_5.index t (0 : Fin 2) * 1024 + 1024
    rw [(out_index t).1, ht]; omega
  | ⟨1, _⟩ =>
    show win0_5.index t (1 : Fin 2) * 1024 ≤ (i 1).val ∧ (i 1).val < win0_5.index t (1 : Fin 2) * 1024 + 1024
    rw [(out_index t).2, ht]; omega

/-- The result array after the run is the value. -/
theorem final (c : Dev nD) : (dats m 0 c).arrAt 5 cfg0.N = result m c :=
  (dats m 0 c).arrAt_eq_of_cover 5 (result m c) (flushed_eq m c) (cover)

/-- The run, read: the result array at the value, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KValue

end
-- ==== Proof.RefValue.lean ====
/-
  The reference program's result, entry by entry, is the value of the specification.

  Its eleven host operations read at an index: the two inner products as sums over the contracted coordinate, the
  transposition of W as a swap of the two coordinates, the splat of 2, and b repeated down the rows.
-/
import proofs.«101576_j49520972922883_2_alg».proof.Proof.Gen.ReferenceIdeal.Read
import proofs.«101576_j49520972922883_2_alg».proof.Proof.Spec

noncomputable section

open scoped BigOperators
open Idealize.ShloMosaic Idealize.ShloMosaic.TcCoe Idealize.SL.Sem Idealize.ShloMosaic.ValueIdx
open Cert.ReferenceIdeal Cert.ReferenceIdeal.Gen Cert.ReferenceIdeal.Read

namespace Cert.ReferenceIdeal.RefValue

/-- The last stage of the reference is the specification's function of the five arguments. -/
theorem ref_eq (x : (⟨S8192x4096, .f32⟩ : BufTy).Contents (Elt Ideal)) (A : (⟨S4096x16, .f32⟩ : BufTy).Contents (Elt Ideal))
    (B : (⟨S16x4096, .f32⟩ : BufTy).Contents (Elt Ideal)) (W : (⟨S4096x4096, .f32⟩ : BufTy).Contents (Elt Ideal))
    (b : (⟨S4096, .f32⟩ : BufTy).Contents (Elt Ideal)) :
    val_main_v9 (F := Ideal) x A B W b = Cert.Spec.G x A B W b := by
  funext i
  -- the composed index functions of the reference are the coordinate constructors
  have e0l : ∀ (ρ : Fin 16) (k : Fin 4096), lidx_main_v0 (lidx_main_v1 i ρ) k = ix2 (i 0) k := fun ρ k =>
    funext fun a => Fin.ext (by match a with | ⟨0, _⟩ => rfl | ⟨1, _⟩ => rfl)
  have e0r : ∀ (ρ : Fin 16) (k : Fin 4096), ridx_main_v0 (lidx_main_v1 i ρ) k = ix2 k ρ := fun ρ k =>
    funext fun a => Fin.ext (by match a with | ⟨0, _⟩ => rfl | ⟨1, _⟩ => rfl)
  have e1r : ∀ ρ : Fin 16, ridx_main_v1 i ρ = ix2 ρ (i 1) := fun ρ =>
    funext fun a => Fin.ext (by match a with | ⟨0, _⟩ => rfl | ⟨1, _⟩ => rfl)
  have e5l : ∀ k : Fin 4096, lidx_main_v5 i k = ix2 (i 0) k := fun k =>
    funext fun a => Fin.ext (by match a with | ⟨0, _⟩ => rfl | ⟨1, _⟩ => rfl)
  have e4 : ∀ k : Fin 4096, idx_main_v4 (ridx_main_v5 i k) = ix2 (i 1) k := fun k =>
    funext fun a => Fin.ext (by match a with | ⟨0, _⟩ => rfl | ⟨1, _⟩ => rfl)
  have e6 : idx_main_v6 (idx_main_v7 i) = ix1 (i 1) :=
    funext fun a => Fin.ext (by match a with | ⟨0, _⟩ => rfl)
  rw [val_main_v9_apply, val_main_v3_apply, val_main_v8_apply, val_main_v1_apply, val_main_v2_apply,
    val_main_cst_apply, val_main_v5_apply, val_main_v7_apply, val_main_v6_apply, e6]
  simp only [val_main_v0_apply, val_main_v4_apply, e0l, e0r, e1r, e5l, e4]
  unfold Cert.Spec.G Cert.Spec.two
  rfl

end Cert.ReferenceIdeal.RefValue

end
-- ==== Proof.lean ====
/-
  The five claims of the certificate.

  Both programs compute, at token row p and output column q,

      (Σ_ρ (Σ_k x[p,k]·A[k,ρ]) · B[ρ,q]) · 2  +  ((Σ_k x[p,k]·W[q,k]) + b[q])

  over the extended reals.  The reference spells it in this order.  The kernel tiles the output into 8 × 4 blocks of
  1024 × 1024 and the 4096 features into four runs of 1024; per block it accumulates both inner products run by run
  from zero in two buffers it keeps between grid points, multiplies by B scaled by 2 beforehand, and adds the bias
  last.  The two arrangements agree on every extended real: only commutativity and associativity of +, and the
  distribution of the finite non-negative factor 2 over a sum, are used, so the finiteness of the inputs is never
  opened.  The three frames are the programs' runs with the results dropped; the idealization rewrote nothing.
-/
import proofs.«101576_j49520972922883_2_alg».proof.Defs
import proofs.«101576_j49520972922883_2_alg».proof.Proof.Gen.Kernel
import proofs.«101576_j49520972922883_2_alg».proof.Proof.Gen.Kernel.Skeleton
import proofs.«101576_j49520972922883_2_alg».proof.Proof.Gen.Kernel.Launch
import proofs.«101576_j49520972922883_2_alg».proof.Proof.Gen.Kernel.Points
import proofs.«101576_j49520972922883_2_alg».proof.Proof.Gen.Kernel.Frame
import proofs.«101576_j49520972922883_2_alg».proof.Proof.Gen.KernelIdeal
import proofs.«101576_j49520972922883_2_alg».proof.Proof.Gen.KernelIdeal.Skeleton
import proofs.«101576_j49520972922883_2_alg».proof.Proof.Gen.KernelIdeal.Launch
import proofs.«101576_j49520972922883_2_alg».proof.Proof.Gen.KernelIdeal.Points
import proofs.«101576_j49520972922883_2_alg».proof.Proof.Gen.KernelIdeal.Frame
import proofs.«101576_j49520972922883_2_alg».proof.Proof.Gen.ReferenceIdeal
import proofs.«101576_j49520972922883_2_alg».proof.Proof.Gen.Pre_finite_inputs
import proofs.«101576_j49520972922883_2_alg».proof.Proof.Gen.KernelIdeal.Value
import proofs.«101576_j49520972922883_2_alg».proof.Proof.Gen.ReferenceIdeal.Run
import proofs.«101576_j49520972922883_2_alg».proof.Proof.Gen.ReferenceIdeal.Read
import proofs.«101576_j49520972922883_2_alg».proof.Proof.KValue
import proofs.«101576_j49520972922883_2_alg».proof.Proof.RefValue
import Idealize.ShloMosaic.Adequacy
import Idealize.ShloMosaic.Init

noncomputable section

namespace Cert.Proof

open Idealize.ShloMosaic Idealize.SL.Sem Cert.Kernel

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the five arguments the kernel's result array ends at the value of the specification
    (its block-by-block accumulation) and the reference's at its last stage, which is the same function of the
    arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
